-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x16 .f32) (main_arg1 : FVec F S16x32 .f32) (main_arg2 : FVec F S32 .f32) (main_arg3 : FVec F S32x16 .f32) (main_arg4 : FVec F S16 .f32) (main_arg5 : IVec S2x3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x16 : Shape := ⟨2, ![5000, 16]⟩
abbrev S5000x32 : Shape := ⟨2, ![5000, 32]⟩
abbrev S3300000x32 : Shape := ⟨2, ![3300000, 32]⟩
abbrev S5000x1 : Shape := ⟨2, ![5000, 1]⟩
abbrev S1x32 : Shape := ⟨2, ![1, 32]⟩
abbrev S3300000x16 : Shape := ⟨2, ![3300000, 16]⟩
abbrev S1x16 : Shape := ⟨2, ![1, 16]⟩

abbrev nBuf : Space → Nat
  | .hbm => 81
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S16x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x32, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x16, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x16, .f32⟩
  | .hbm, ⟨74, _⟩ => ⟨S3300000x16, .f32⟩
  | .hbm, ⟨75, _⟩ => ⟨S_, .f32⟩
  | .hbm, ⟨76, _⟩ => ⟨S100000x16, .f32⟩
  | .hbm, ⟨77, _⟩ => ⟨S3300000x1, .i32⟩
  | .hbm, ⟨78, _⟩ => ⟨S100000x16, .f32⟩
  | .hbm, ⟨79, _⟩ => ⟨S1x16, .f32⟩
  | .hbm, ⟨80, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![660], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![660], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  shapeCasts_S5000x16_S5000x16 : S5000x16.ShapeCasts S5000x16
  broadcasts_S5000x1_S5000x16 : S5000x1.Broadcasts S5000x16
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S3300000x32.size a
  hwx1_0 : ∀ i : grid1.Coords, EltTy.bits .f32 = 32 ∨ (Rect.block (s := S3300000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S3300000x1.size a
  hwx1_1 : ∀ i : grid1.Coords, EltTy.bits .f32 = 32 ∨ (Rect.block (s := S3300000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S3300000x32.size a
  hwx1_2 : ∀ i : grid1.Coords, EltTy.bits .f32 = 32 ∨ (Rect.block (s := S3300000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S3300000x16.size a
  hwx4_0 : ∀ i : grid4.Coords, EltTy.bits .f32 = 32 ∨ (Rect.block (s := S3300000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S3300000x1.size a
  hwx4_1 : ∀ i : grid4.Coords, EltTy.bits .f32 = 32 ∨ (Rect.block (s := S3300000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S3300000x16.size a
  hwx4_2 : ∀ i : grid4.Coords, EltTy.bits .f32 = 32 ∨ (Rect.block (s := S3300000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S3300000x16 : Shape := ⟨2, ![3300000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S16x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000, .f32⟩
  | .hbm, ⟨104, _⟩ => ⟨S3300000, .f32⟩
  | .hbm, ⟨105, _⟩ => ⟨S100000x16, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x16, .f32⟩
  | .hbm, ⟨115, _⟩ => ⟨S3300000x1, .f32⟩
  | .hbm, ⟨116, _⟩ => ⟨S3300000x16, .f32⟩
  | .hbm, ⟨117, _⟩ => ⟨S3300000x16, .f32⟩
  | .hbm, ⟨118, _⟩ => ⟨S_, .f32⟩
  | .hbm, ⟨119, _⟩ => ⟨S100000x16, .f32⟩
  | .hbm, ⟨120, _⟩ => ⟨S3300000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel's run, read back with its result named.

  @main is thirteen segments: stretches of host operations and six pipelined regions. The contents of the
  TensorCore's buffers at the end are the last link of a chain of contents, one per segment boundary: after a host
  stretch each buffer it writes holds its operation's function of the operands and every other buffer is as before;
  after a region each output array holds what the write-backs of the blocks leave and every other buffer is as
  before. Every weakly fair execution terminates without a fault in a state whose result array holds the last
  link at the result's buffer, and whose six argument arrays are as launched.
-/
import proofs.«165151_j37022618091719_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result array at the last boundary's contents and the
    arguments as launched. -/
theorem run : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Chain

end
-- ==== Proof.HostSteps.lean ====
/-
  The host stretches of the kernel's @main, one at a time, over ANY contents of the buffers.

  Between the regions @main runs short stretches of host operations. Each lemma here runs one stretch from arbitrary
  buffer contents V: a buffer the stretch writes ends at its operations' function of what V holds in the operands,
  and a buffer it does not write keeps what V holds. Where V holds the reference's stages in the operands, the
  written buffer holds the reference's next stage, because the kernel's host operations are, one for one, the
  reference's: the cut of the edge list and the self loops, the degree count and the inverse square roots, the row
  gathers through the wrapped source indices, the scatter-adds at the target indices.
-/
import proofs.«165151_j37022618091719_2_alg».proof.Proof.Gen.KernelIdeal.Launch
import proofs.«165151_j37022618091719_2_alg».proof.Proof.ReadP

set_option maxRecDepth 16384

noncomputable section

namespace Cert.KernelIdeal.HostSteps

open Cert.KernelIdeal Cert.KernelIdeal.Gen
open Idealize.ShloMosaic Idealize.ShloMosaic.TcCoe Idealize.SL.Sem Idealize.ShloMosaic.StableHlo
open Cert.ReferenceIdeal.ReadP

/-! ## What each stretch leaves alone -/

theorem keep_hostOps0_main_arg0 (V : Valuation τ sig (Elt Ideal)) : StableHlo.after hostOps0 V (Proc.devRef .tc main_arg0) = V (Proc.devRef .tc main_arg0) := by after_results
theorem keep_hostOps0_main_arg1 (V : Valuation τ sig (Elt Ideal)) : StableHlo.after hostOps0 V (Proc.devRef .tc main_arg1) = V (Proc.devRef .tc main_arg1) := by after_results
theorem keep_hostOps0_main_arg2 (V : Valuation τ sig (Elt Ideal)) : StableHlo.after hostOps0 V (Proc.devRef .tc main_arg2) = V (Proc.devRef .tc main_arg2) := by after_results
theorem keep_hostOps0_main_arg3 (V : Valuation τ sig (Elt Ideal)) : StableHlo.after hostOps0 V (Proc.devRef .tc main_arg3) = V (Proc.devRef .tc main_arg3) := by after_results
theorem keep_hostOps0_main_arg4 (V : Valuation τ sig (Elt Ideal)) : StableHlo.after hostOps0 V (Proc.devRef .tc main_arg4) = V (Proc.devRef .tc main_arg4) := by after_results
theorem keep_hostOps0_1_main_v5 (V : Valuation τ sig (Elt Ideal)) : StableHlo.after hostOps0_1 V (Proc.devRef .tc main_v5) = V (Proc.devRef .tc main_v5) := by after_results
theorem keep_hostOps0_1_main_v6 (V : Valuation τ sig (Elt Ideal)) : StableHlo.after hostOps0_1 V (Proc.devRef .tc main_v6) = V (Proc.devRef .tc main_v6) := by after_results
theorem keep_hostOps0_1_main_arg0 (V : Valuation τ sig (Elt Ideal)) : StableHlo.after hostOps0_1 V (Proc.devRef .tc main_arg0) = V (Proc.devRef .tc main_arg0) := by after_results
theorem keep_hostOps0_1_main_arg1 (V : Valuation τ sig (Elt Ideal)) : StableHlo.after hostOps0_1 V (Proc.devRef .tc main_arg1) = V (Proc.devRef .tc main_arg1) := by after_results
theorem keep_hostOps0_1_main_arg2 (V : Valuation τ sig (Elt Ideal)) : StableHlo.after hostOps0_1 V (Proc.devRef .tc main_arg2) = V (Proc.devRef .tc main_arg2) := by after_results
theorem keep_hostOps0_1_main_arg3 (V : Valuation τ sig (Elt Ideal)) : StableHlo.after hostOps0_1 V (Proc.devRef .tc main_arg3) = V (Proc.devRef .tc main_arg3) := by after_results
theorem keep_hostOps0_1_main_arg4 (V : Valuation τ sig (Elt Ideal)) : StableHlo.after hostOps0_1 V (Proc.devRef .tc main_arg4) = V (Proc.devRef .tc main_arg4) := by after_results
theorem keep_hostOps0_2_main_v5 (V : Valuation τ sig (Elt Ideal)) : StableHlo.after hostOps0_2 V (Proc.devRef .tc main_v5) = V (Proc.devRef .tc main_v5) := by after_results
theorem keep_hostOps0_2_main_v6 (V : Valuation τ sig (Elt Ideal)) : StableHlo.after hostOps0_2 V (Proc.devRef .tc main_v6) = V (Proc.devRef .tc main_v6) := by after_results
theorem keep_hostOps0_2_main_arg0 (V : Valuation τ sig (Elt Ideal)) : StableHlo.after hostOps0_2 V (Proc.devRef .tc main_arg0) = V (Proc.devRef .tc main_arg0) := by after_results
theorem keep_hostOps0_2_main_arg1 (V : Valuation τ sig (Elt Ideal)) : StableHlo.after hostOps0_2 V (Proc.devRef .tc main_arg1) = V (Proc.devRef .tc main_arg1) := by after_results
theorem keep_hostOps0_2_main_arg2 (V : Valuation τ sig (Elt Ideal)) : StableHlo.after hostOps0_2 V (Proc.devRef .tc main_arg2) = V (Proc.devRef .tc main_arg2) := by after_results
theorem keep_hostOps0_2_main_arg3 (V : Valuation τ sig (Elt Ideal)) : StableHlo.after hostOps0_2 V (Proc.devRef .tc main_arg3) = V (Proc.devRef .tc main_arg3) := by after_results
theorem keep_hostOps0_2_main_arg4 (V : Valuation τ sig (Elt Ideal)) : StableHlo.after hostOps0_2 V (Proc.devRef .tc main_arg4) = V (Proc.devRef .tc main_arg4) := by after_results
theorem keep_hostOps1_main_v5 (V : Valuation τ sig (Elt Ideal)) : StableHlo.after hostOps1 V (Proc.devRef .tc main_v5) = V (Proc.devRef .tc main_v5) := by after_results
theorem keep_hostOps1_main_v6 (V : Valuation τ sig (Elt Ideal)) : StableHlo.after hostOps1 V (Proc.devRef .tc main_v6) = V (Proc.devRef .tc main_v6) := by after_results
theorem keep_hostOps1_main_v30 (V : Valuation τ sig (Elt Ideal)) : StableHlo.after hostOps1 V (Proc.devRef .tc main_v30) = V (Proc.devRef .tc main_v30) := by after_results
theorem keep_hostOps1_main_arg2 (V : Valuation τ sig (Elt Ideal)) : StableHlo.after hostOps1 V (Proc.devRef .tc main_arg2) = V (Proc.devRef .tc main_arg2) := by after_results
theorem keep_hostOps1_main_arg3 (V : Valuation τ sig (Elt Ideal)) : StableHlo.after hostOps1 V (Proc.devRef .tc main_arg3) = V (Proc.devRef .tc main_arg3) := by after_results
theorem keep_hostOps1_main_arg4 (V : Valuation τ sig (Elt Ideal)) : StableHlo.after hostOps1 V (Proc.devRef .tc main_arg4) = V (Proc.devRef .tc main_arg4) := by after_results
theorem keep_hostOps2_main_v5 (V : Valuation τ sig (Elt Ideal)) : StableHlo.after hostOps2 V (Proc.devRef .tc main_v5) = V (Proc.devRef .tc main_v5) := by after_results
theorem keep_hostOps2_main_v6 (V : Valuation τ sig (Elt Ideal)) : StableHlo.after hostOps2 V (Proc.devRef .tc main_v6) = V (Proc.devRef .tc main_v6) := by after_results
theorem keep_hostOps2_main_v30 (V : Valuation τ sig (Elt Ideal)) : StableHlo.after hostOps2 V (Proc.devRef .tc main_v30) = V (Proc.devRef .tc main_v30) := by after_results
theorem keep_hostOps2_main_arg3 (V : Valuation τ sig (Elt Ideal)) : StableHlo.after hostOps2 V (Proc.devRef .tc main_arg3) = V (Proc.devRef .tc main_arg3) := by after_results
theorem keep_hostOps2_main_arg4 (V : Valuation τ sig (Elt Ideal)) : StableHlo.after hostOps2 V (Proc.devRef .tc main_arg4) = V (Proc.devRef .tc main_arg4) := by after_results
theorem keep_hostOps4_main_v6 (V : Valuation τ sig (Elt Ideal)) : StableHlo.after hostOps4 V (Proc.devRef .tc main_v6) = V (Proc.devRef .tc main_v6) := by after_results
theorem keep_hostOps4_main_v30 (V : Valuation τ sig (Elt Ideal)) : StableHlo.after hostOps4 V (Proc.devRef .tc main_v30) = V (Proc.devRef .tc main_v30) := by after_results
theorem keep_hostOps4_main_arg4 (V : Valuation τ sig (Elt Ideal)) : StableHlo.after hostOps4 V (Proc.devRef .tc main_arg4) = V (Proc.devRef .tc main_arg4) := by after_results

/-! ## What each stretch computes -/

/-- The source list: the edge sources, then the self loops. -/
theorem src_of (V : Valuation τ sig (Elt Ideal)) : StableHlo.after hostOps0 V (Proc.devRef .tc main_v5) = val_main_v5 (F := Ideal) (V (Proc.devRef .tc main_arg5)) := by
  after_results; rfl
/-- The target list: the edge targets, then the self loops. -/
theorem dst_of (V : Valuation τ sig (Elt Ideal)) : StableHlo.after hostOps0 V (Proc.devRef .tc main_v6) = val_main_v6 (F := Ideal) (V (Proc.devRef .tc main_arg5)) := by
  after_results; rfl
/-- Which degrees are positive. -/
theorem pos_of (V : Valuation τ sig (Elt Ideal)) : StableHlo.after hostOps0 V (Proc.devRef .tc main_v12) = val_main_v12 (F := Ideal) (V (Proc.devRef .tc main_arg5)) := by
  after_results; rfl
/-- The degrees' inverse square roots. -/
theorem rsqrt_of (V : Valuation τ sig (Elt Ideal)) : StableHlo.after hostOps0 V (Proc.devRef .tc main_v13) = val_main_v13 (F := Ideal) (V (Proc.devRef .tc main_arg5)) := by
  after_results; rfl
/-- The zero the non-positive degrees get. -/
theorem zero_of (V : Valuation τ sig (Elt Ideal)) : StableHlo.after hostOps0 V (Proc.devRef .tc main_cst_2) = val_main_cst_2 (F := Ideal) := by
  after_results; rfl

/-- The per-node factor: the inverse square root where the degree is positive, zero elsewhere. -/
theorem dinv_of (V : Valuation τ sig (Elt Ideal)) (x5 : (⟨Cert.ReferenceIdeal.S2x3200000, .i32⟩ : BufTy).Contents (Elt Ideal)) (h12 : V (Proc.devRef .tc main_v12) = val_main_v12 (F := Ideal) x5)
    (h13 : V (Proc.devRef .tc main_v13) = val_main_v13 (F := Ideal) x5) (hc : V (Proc.devRef .tc main_cst_2) = val_main_cst_2 (F := Ideal)) :
    StableHlo.after hostOps0_1 V (Proc.devRef .tc main_v14) = val_main_v14 (F := Ideal) x5 := by
  have e14 : ∀ v : (⟨S100000, .f32⟩ : BufTy).Contents (Elt Ideal), (TRef.of (sig := sig) (T := ⟨S100000, .f32⟩) main_v14).toBuf v = v := fun _ => rfl
  have e12 : ∀ v, (TRef.of (sig := sig) (T := ⟨S100000, .i1⟩) main_v12).ofBuf (Val := Elt Ideal) v = v := fun _ => rfl
  have e13 : ∀ v, (TRef.of (sig := sig) (T := ⟨S100000, .f32⟩) main_v13).ofBuf (Val := Elt Ideal) v = v := fun _ => rfl
  have e1t : ∀ v : (⟨S100000, .f32⟩ : BufTy).Contents (Elt Ideal), (TRef.of (sig := sig) (T := ⟨S100000, .f32⟩) main_call0_v1).toBuf v = v := fun _ => rfl
  have e1o : ∀ v, (TRef.of (sig := sig) (T := ⟨S100000, .f32⟩) main_call0_v1).ofBuf (Val := Elt Ideal) v = v := fun _ => rfl
  have e0t : ∀ v : (⟨S_, .f32⟩ : BufTy).Contents (Elt Ideal), (TRef.of (sig := sig) (T := ⟨S_, .f32⟩) main_call0_v0).toBuf v = v := fun _ => rfl
  have e0o : ∀ v, (TRef.of (sig := sig) (T := ⟨S_, .f32⟩) main_call0_v0).ofBuf (Val := Elt Ideal) v = v := fun _ => rfl
  have ec : ∀ v, (TRef.of (sig := sig) (T := ⟨S_, .f32⟩) main_cst_2).ofBuf (Val := Elt Ideal) v = v := fun _ => rfl
  after_results
  rw [h12, h13, hc, e14, e12, e13, e1o, e1t, e0o, e0t, ec]
  rfl

set_option maxHeartbeats 4000000 in
/-- The edge weights as a column: the product of the two ends' factors. -/
theorem weight_of (V : Valuation τ sig (Elt Ideal)) (x5 : (⟨Cert.ReferenceIdeal.S2x3200000, .i32⟩ : BufTy).Contents (Elt Ideal)) (h5 : V (Proc.devRef .tc main_v5) = val_main_v5 (F := Ideal) x5)
    (h6 : V (Proc.devRef .tc main_v6) = val_main_v6 (F := Ideal) x5) (h14 : V (Proc.devRef .tc main_v14) = val_main_v14 (F := Ideal) x5) :
    StableHlo.after hostOps0_2 V (Proc.devRef .tc main_v30)
      = shapeCast S3300000x1 (val_main_v29 (F := Ideal) x5) shapeCasts_S3300000_S3300000x1 := by
  after_results_simp; rw [h5, h6, h14]; rfl

/-- The first layer's transformed features gathered at the source of every edge. -/
theorem gathered1_of (V : Valuation τ sig (Elt Ideal)) (x0 : (⟨Cert.ReferenceIdeal.S100000x16, .f32⟩ : BufTy).Contents (Elt Ideal)) (x1 : (⟨Cert.ReferenceIdeal.S16x32, .f32⟩ : BufTy).Contents (Elt Ideal)) (x5 : (⟨Cert.ReferenceIdeal.S2x3200000, .i32⟩ : BufTy).Contents (Elt Ideal)) (h31 : V (Proc.devRef .tc main_v31) = val_main_v30 (F := Ideal) x0 x1)
    (h5 : V (Proc.devRef .tc main_v5) = val_main_v5 (F := Ideal) x5) :
    StableHlo.after hostOps1 V (Proc.devRef .tc main_v38) = val_main_v37 (F := Ideal) x0 x1 x5 := by
  after_results; rw [h31, h5]; rfl

/-- The first layer's messages added up at the target of every edge. -/
theorem summed1_of (V : Valuation τ sig (Elt Ideal)) (x0 : (⟨Cert.ReferenceIdeal.S100000x16, .f32⟩ : BufTy).Contents (Elt Ideal)) (x1 : (⟨Cert.ReferenceIdeal.S16x32, .f32⟩ : BufTy).Contents (Elt Ideal)) (x5 : (⟨Cert.ReferenceIdeal.S2x3200000, .i32⟩ : BufTy).Contents (Elt Ideal)) (h39 : V (Proc.devRef .tc main_v39) = val_main_v40 (F := Ideal) x0 x1 x5)
    (h6 : V (Proc.devRef .tc main_v6) = val_main_v6 (F := Ideal) x5) :
    StableHlo.after hostOps2 V (Proc.devRef .tc main_v42) = val_main_v43 (F := Ideal) x0 x1 x5 := by
  after_results; rw [h39, h6]; rfl
/-- The first bias as one row. -/
theorem biasrow1_of (V : Valuation τ sig (Elt Ideal)) :
    StableHlo.after hostOps2 V (Proc.devRef .tc main_v43) = shapeCast S1x32 (V (Proc.devRef .tc main_arg2)) shapeCasts_S32_S1x32 := by
  after_results; rfl

/-- The second layer's transformed features gathered at the source of every edge. -/
theorem gathered2_of (V : Valuation τ sig (Elt Ideal)) (x0 : (⟨Cert.ReferenceIdeal.S100000x16, .f32⟩ : BufTy).Contents (Elt Ideal)) (x1 : (⟨Cert.ReferenceIdeal.S16x32, .f32⟩ : BufTy).Contents (Elt Ideal)) (x2 : (⟨Cert.ReferenceIdeal.S32, .f32⟩ : BufTy).Contents (Elt Ideal)) (x3 : (⟨Cert.ReferenceIdeal.S32x16, .f32⟩ : BufTy).Contents (Elt Ideal)) (x5 : (⟨Cert.ReferenceIdeal.S2x3200000, .i32⟩ : BufTy).Contents (Elt Ideal)) (h45 : V (Proc.devRef .tc main_v45) = val_main_v74 (F := Ideal) x0 x1 x2 x3 x5)
    (h5 : V (Proc.devRef .tc main_v5) = val_main_v5 (F := Ideal) x5) :
    StableHlo.after hostOps4 V (Proc.devRef .tc main_v52) = val_main_v81 (F := Ideal) x0 x1 x2 x3 x5 := by
  after_results; rw [h45, h5]; rfl

/-- The second layer's messages added up at the target of every edge. -/
theorem summed2_of (V : Valuation τ sig (Elt Ideal)) (x0 : (⟨Cert.ReferenceIdeal.S100000x16, .f32⟩ : BufTy).Contents (Elt Ideal)) (x1 : (⟨Cert.ReferenceIdeal.S16x32, .f32⟩ : BufTy).Contents (Elt Ideal)) (x2 : (⟨Cert.ReferenceIdeal.S32, .f32⟩ : BufTy).Contents (Elt Ideal)) (x3 : (⟨Cert.ReferenceIdeal.S32x16, .f32⟩ : BufTy).Contents (Elt Ideal)) (x5 : (⟨Cert.ReferenceIdeal.S2x3200000, .i32⟩ : BufTy).Contents (Elt Ideal)) (h53 : V (Proc.devRef .tc main_v53) = val_main_v84 (F := Ideal) x0 x1 x2 x3 x5)
    (h6 : V (Proc.devRef .tc main_v6) = val_main_v6 (F := Ideal) x5) :
    StableHlo.after hostOps5 V (Proc.devRef .tc main_v56) = val_main_v87 (F := Ideal) x0 x1 x2 x3 x5 := by
  after_results; rw [h53, h6]; rfl
/-- The second bias as one row. -/
theorem biasrow2_of (V : Valuation τ sig (Elt Ideal)) :
    StableHlo.after hostOps5 V (Proc.devRef .tc main_v57) = shapeCast S1x16 (V (Proc.devRef .tc main_arg4)) shapeCasts_S16_S1x16 := by
  after_results; rfl

end Cert.KernelIdeal.HostSteps

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«165151_j37022618091719_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Linear1.lean ====
/-
  The first dense layer's matrix product, block by block of the grid.

  The region runs over 20 grid points; point t loads rows 5000·t … 5000·t + 4999 of the left array (100000 × 16) and
  the whole right array (16 × 32), multiplies them on the matrix unit into a zero accumulator, and writes the
  5000 × 32 product back as rows 5000·t … of the output. At the ideal values the rounding of the operands to a shorter
  format is the identity and the product's entry (p, q) is the sum over k < 16 of left(p, k) · right(k, q). So every
  block written back is a block of ONE array, "rows times matrix" of the two arrays as the region finds them, the
  blocks tile the output, and the output ends holding that array.
-/
import proofs.«165151_j37022618091719_2_alg».proof.Proof.Gen.KernelIdeal.Frame
import proofs.«165151_j37022618091719_2_alg».proof.Proof.LibPlainLists
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Rows times a matrix: entry (p, q) is the sum over k of x(p, k) · w(k, q). -/
def rowsTimes (x : S100000x16.Idx → EReal) (w : S16x32.Idx → EReal) : S100000x32.Idx → EReal :=
  fun i => ∑ k : Fin 16, x (ix2 (i 0) k) * w (ix2 k (i 1))

/-- The body's one stored value at entry (p, q) of the block: the contraction over k of the two loaded blocks. -/
theorem pay_at (x0 : Vec Ideal S5000x16 .f32) (x1 : Vec Ideal S16x32 .f32) (p : Fin 5000) (q : Fin 32) :
    k0_pay1 (F := Ideal) x0 x1 (ix2 p q) = ∑ k : Fin 16, x0 (ix2 p k) * x1 (ix2 k q) := by
  unfold k0_pay1
  exact Cert.LibMatmulSum.matmul_zero_at
    (Cert.LibMatmulSum.Plain.of_lists dot_S5000x16_S16x32_S5000x32_1_0_0_1_n_n rfl rfl rfl rfl rfl rfl) none _ _ p q

/-- The printed index maps over the grid: the row windows sit at block t, the matrix window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where an entry of point t's output block sits in the output array: row 5000·t + p, column q. -/
theorem emb_out (t : Fin cfg0.N) (p : Fin 5000) (q : Fin 32) (r : Fin 100000) (hr : r.val = t.val * 5000 + p.val) :
    ((cfg0.win 2).blk t).view.emb (ix2 p q) = (ix2 r q : S100000x32.Idx) := by
  obtain ⟨-, -, -, -, e20, e21⟩ := idx_facts t
  funext a; apply Fin.ext
  match a with
  | ⟨0, _⟩ => show win0_2.index t (0 : Fin 2) * 5000 + 1 * p.val = r.val; rw [e20, hr]; omega
  | ⟨1, _⟩ => show win0_2.index t (1 : Fin 2) * 32 + 1 * q.val = q.val; rw [e21]; omega

/-- The left window's block at point t holds rows 5000·t … of the left array. -/
theorem left_at (c : Dev nD) (t : Fin cfg0.N) (p : Fin 5000) (k : Fin 16) (r : Fin 100000) (hr : r.val = t.val * 5000 + p.val) :
    iblk0 V c 0 t (ix2 p k) = (V c main_arg0 : S100000x16.Idx → EReal) (ix2 r k) := by
  obtain ⟨e00, e01, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [e00, hr]; omega
  | ⟨1, _⟩ => show win0_0.index t (1 : Fin 2) * 16 + 1 * k.val = k.val; rw [e01]; omega

/-- The right window's block at every point is the whole right array. -/
theorem right_at (c : Dev nD) (t : Fin cfg0.N) (k : Fin 16) (q : Fin 32) :
    iblk0 V c 1 t (ix2 k q) = (V c main_arg1 : S16x32.Idx → EReal) (ix2 k q) := by
  obtain ⟨-, -, e10, e11, -, -⟩ := idx_facts t
  unfold iblk0
  rw [View.read_apply]
  show V c main_arg1 _ = V c main_arg1 _
  refine congrArg _ (funext fun a => Fin.ext ?_)
  match a with
  | ⟨0, _⟩ => show win0_1.index t (0 : Fin 2) * 16 + 1 * k.val = k.val; rw [e10]; omega
  | ⟨1, _⟩ => show win0_1.index t (1 : Fin 2) * 32 + 1 * q.val = q.val; rw [e11]; omega

/-- What point t writes back is block t of "rows times matrix" of the two arrays as the region finds them. -/
theorem flushed_eq (c : Dev nD) (t : Fin cfg0.N) :
    (dat0 V c).flushed 2 t = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero hz]
  simp only [View.ld_unit_zero (S := S5000x16) hz, View.ld_unit_zero (S := S16x32) hz]
  funext j
  obtain ⟨p, q, rfl⟩ : ∃ (p : Fin 5000) (q : Fin 32), j = ix2 p q := ⟨j 0, j 1, eq_ix2 j⟩
  have hN : cfg0.N = 20 := N_0
  have ht := t.isLt
  show k0_pay1 (iblk0 V c 0 t) (iblk0 V c 1 t) (ix2 p q) = rowsTimes (V c main_arg0) (V c main_arg1) (((cfg0.win 2).blk t).view.emb (ix2 p q))
  rw [emb_out t p q ⟨t.val * 5000 + p.val, by omega⟩ rfl]
  refine (pay_at _ _ p q).trans ?_
  unfold rowsTimes
  refine Finset.sum_congr rfl fun k _ => ?_
  rw [left_at V c t p k ⟨t.val * 5000 + p.val, by omega⟩ rfl, right_at V c t k q]

/-- An index of the output array is in point t's block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v31).slice (win0_2.rect t)).set ↔ _
  rw [View.set_slice_whole, Rect.mem_set_unit]
  exact Iff.rfl

/-- Row r of the output lies in the block of point r / 5000: the blocks tile the array. -/
theorem cover (i : S100000x32.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 32 := (i 1).isLt
  refine ⟨⟨(i 0).val / 5000, by omega⟩, flush0_2 _, ?_⟩
  rw [mem_blk]
  obtain ⟨-, -, -, -, e20, e21⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 32 ≤ (i 1).val ∧ (i 1).val < win0_2.index _ (1 : Fin 2) * 32 + 32; rw [e21]; omega

/-- After the region the output array holds "rows times matrix" of the two input arrays as the region found them. -/
theorem final (c : Dev nD) : (dat0 V c).arrAt 2 cfg0.N = rowsTimes (V c main_arg0) (V c main_arg1) :=
  (dat0 V c).arrAt_eq_of_cover 2 (rowsTimes (V c main_arg0) (V c main_arg1)) (fun t _ => flushed_eq V c t) cover

end Cert.KernelIdeal.Linear1

end
-- ==== Proof.Linear2.lean ====
/-
  The second dense layer's matrix product, block by block of the grid.

  The region runs over 20 grid points; point t loads rows 5000·t … 5000·t + 4999 of the left array (100000 × 32) and
  the whole right array (32 × 16), multiplies them on the matrix unit into a zero accumulator, and writes the
  5000 × 16 product back as rows 5000·t … of the output. At the ideal values the rounding of the operands to a shorter
  format is the identity and the product's entry (p, q) is the sum over k < 32 of left(p, k) · right(k, q). So every
  block written back is a block of ONE array, "rows times matrix" of the two arrays as the region finds them, the
  blocks tile the output, and the output ends holding that array.
-/
import proofs.«165151_j37022618091719_2_alg».proof.Proof.Gen.KernelIdeal.Frame
import proofs.«165151_j37022618091719_2_alg».proof.Proof.LibPlainLists
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Rows times a matrix: entry (p, q) is the sum over k of x(p, k) · w(k, q). -/
def rowsTimes (x : S100000x32.Idx → EReal) (w : S32x16.Idx → EReal) : S100000x16.Idx → EReal :=
  fun i => ∑ k : Fin 32, x (ix2 (i 0) k) * w (ix2 k (i 1))

/-- The body's one stored value at entry (p, q) of the block: the contraction over k of the two loaded blocks. -/
theorem pay_at (x0 : Vec Ideal S5000x32 .f32) (x1 : Vec Ideal S32x16 .f32) (p : Fin 5000) (q : Fin 16) :
    k3_pay1 (F := Ideal) x0 x1 (ix2 p q) = ∑ k : Fin 32, x0 (ix2 p k) * x1 (ix2 k q) := by
  unfold k3_pay1
  simp only [shapeCast_self]
  exact Cert.LibMatmulSum.matmul_zero_at
    (Cert.LibMatmulSum.Plain.of_lists dot_S5000x32_S32x16_S5000x16_1_0_0_1_n_n rfl rfl rfl rfl rfl rfl) none _ _ p q

/-- The printed index maps over the grid: the row windows sit at block t, the matrix window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Where an entry of point t's output block sits in the output array: row 5000·t + p, column q. -/
theorem emb_out (t : Fin cfg3.N) (p : Fin 5000) (q : Fin 16) (r : Fin 100000) (hr : r.val = t.val * 5000 + p.val) :
    ((cfg3.win 2).blk t).view.emb (ix2 p q) = (ix2 r q : S100000x16.Idx) := by
  obtain ⟨-, -, -, -, e20, e21⟩ := idx_facts t
  funext a; apply Fin.ext
  match a with
  | ⟨0, _⟩ => show win3_2.index t (0 : Fin 2) * 5000 + 1 * p.val = r.val; rw [e20, hr]; omega
  | ⟨1, _⟩ => show win3_2.index t (1 : Fin 2) * 16 + 1 * q.val = q.val; rw [e21]; omega

/-- The left window's block at point t holds rows 5000·t … of the left array. -/
theorem left_at (c : Dev nD) (t : Fin cfg3.N) (p : Fin 5000) (k : Fin 32) (r : Fin 100000) (hr : r.val = t.val * 5000 + p.val) :
    iblk3 V c 0 t (ix2 p k) = (V c main_v44 : S100000x32.Idx → EReal) (ix2 r k) := by
  obtain ⟨e00, e01, -, -, -, -⟩ := idx_facts t
  unfold iblk3
  rw [View.read_apply]
  show V c main_v44 _ = V c main_v44 _
  refine congrArg _ (funext fun a => Fin.ext ?_)
  match a with
  | ⟨0, _⟩ => show win3_0.index t (0 : Fin 2) * 5000 + 1 * p.val = r.val; rw [e00, hr]; omega
  | ⟨1, _⟩ => show win3_0.index t (1 : Fin 2) * 32 + 1 * k.val = k.val; rw [e01]; omega

/-- The right window's block at every point is the whole right array. -/
theorem right_at (c : Dev nD) (t : Fin cfg3.N) (k : Fin 32) (q : Fin 16) :
    iblk3 V c 1 t (ix2 k q) = (V c main_arg3 : S32x16.Idx → EReal) (ix2 k q) := by
  obtain ⟨-, -, e10, e11, -, -⟩ := idx_facts t
  unfold iblk3
  rw [View.read_apply]
  show V c main_arg3 _ = V c main_arg3 _
  refine congrArg _ (funext fun a => Fin.ext ?_)
  match a with
  | ⟨0, _⟩ => show win3_1.index t (0 : Fin 2) * 32 + 1 * k.val = k.val; rw [e10]; omega
  | ⟨1, _⟩ => show win3_1.index t (1 : Fin 2) * 16 + 1 * q.val = q.val; rw [e11]; omega

/-- What point t writes back is block t of "rows times matrix" of the two arrays as the region finds them. -/
theorem flushed_eq (c : Dev nD) (t : Fin cfg3.N) :
    (dat3 V c).flushed 2 t = ((cfg3.win 2).blk t).view.read (Elt Ideal) (rowsTimes (V c main_v44) (V c main_arg3)) := by
  show (cfg3.win 2).cut (grid3.coords t) ((dat3 V c).after 2 t) = _
  rw [after3_2]
  unfold out3_2
  rw [View.canon_unit_zero hz]
  simp only [View.ld_unit_zero (S := S5000x32) hz, View.ld_unit_zero (S := S32x16) hz]
  funext j
  obtain ⟨p, q, rfl⟩ : ∃ (p : Fin 5000) (q : Fin 16), j = ix2 p q := ⟨j 0, j 1, eq_ix2 j⟩
  have hN : cfg3.N = 20 := N_3
  have ht := t.isLt
  show k3_pay1 (iblk3 V c 0 t) (iblk3 V c 1 t) (ix2 p q) = rowsTimes (V c main_v44) (V c main_arg3) (((cfg3.win 2).blk t).view.emb (ix2 p q))
  rw [emb_out t p q ⟨t.val * 5000 + p.val, by omega⟩ rfl]
  refine (pay_at _ _ p q).trans ?_
  unfold rowsTimes
  refine Finset.sum_congr rfl fun k _ => ?_
  rw [left_at V c t p k ⟨t.val * 5000 + p.val, by omega⟩ rfl, right_at V c t k q]

/-- An index of the output array is in point t's block iff each coordinate is in the block's range on its axis. -/
theorem mem_blk (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v45).slice (win3_2.rect t)).set ↔ _
  rw [View.set_slice_whole, Rect.mem_set_unit]
  exact Iff.rfl

/-- Row r of the output lies in the block of point r / 5000: the blocks tile the array. -/
theorem cover (i : S100000x16.Idx) : ∃ t : Fin cfg3.N, (cfg3.win 2).flush t = true ∧ i ∈ ((cfg3.win 2).blk t).view.set := by
  have hN : cfg3.N = 20 := N_3
  have hi0 : (i 0).val < 100000 := (i 0).isLt
  have hi1 : (i 1).val < 16 := (i 1).isLt
  refine ⟨⟨(i 0).val / 5000, by omega⟩, flush3_2 _, ?_⟩
  rw [mem_blk]
  obtain ⟨-, -, -, -, e20, e21⟩ := idx_facts ⟨(i 0).val / 5000, by omega⟩
  intro a
  match a with
  | ⟨0, _⟩ => show win3_2.index _ (0 : Fin 2) * 5000 ≤ (i 0).val ∧ (i 0).val < win3_2.index _ (0 : Fin 2) * 5000 + 5000; rw [e20]; show (i 0).val / 5000 * 5000 ≤ (i 0).val ∧ (i 0).val < (i 0).val / 5000 * 5000 + 5000; omega
  | ⟨1, _⟩ => show win3_2.index _ (1 : Fin 2) * 16 ≤ (i 1).val ∧ (i 1).val < win3_2.index _ (1 : Fin 2) * 16 + 16; rw [e21]; omega

/-- After the region the output array holds "rows times matrix" of the two input arrays as the region found them. -/
theorem final (c : Dev nD) : (dat3 V c).arrAt 2 cfg3.N = rowsTimes (V c main_v44) (V c main_arg3) :=
  (dat3 V c).arrAt_eq_of_cover 2 (rowsTimes (V c main_v44) (V c main_arg3)) (fun t _ => flushed_eq V c t) cover

end Cert.KernelIdeal.Linear2

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Scale1.lean ====
/-
  The first layer's edge messages scaled by the edge weights, block by block of the grid.

  The region runs over 660 grid points; point t loads rows 5000·t … 5000·t + 4999 of the gathered features
  (3300000 × 32) and of the weight column (3300000 × 1), repeats the column along the 32 lanes, multiplies, and writes
  the 5000 × 32 product back as the same rows of the output. Entry (p, q) of a block is feature(p, q) · weight(p, 0), so
  every block written back is a block of ONE array — each row of the features times that row's weight —, the blocks
  tile the output, and the output ends holding that array.
-/
import proofs.«165151_j37022618091719_2_alg».proof.Proof.Gen.KernelIdeal.Frame
import proofs.«165151_j37022618091719_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Scale1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Each row of h times that row's entry of the column n. -/
def rowScaled (h : S3300000x32.Idx → EReal) (n : S3300000x1.Idx → EReal) : S3300000x32.Idx → EReal :=
  fun i => h i * n (ix2 (i 0) (0 : Fin 1))

theorem rowScaled_at (h : S3300000x32.Idx → EReal) (n : S3300000x1.Idx → EReal) (r : Fin 3300000) (q : Fin 32) :
    rowScaled h n (ix2 r q) = h (ix2 r q) * n (ix2 r (0 : Fin 1)) := rfl

/-- The body's one stored value at entry (p, q) of the block. -/
theorem pay_at (x0 : Vec Ideal S5000x32 .f32) (x1 : Vec Ideal S5000x1 .f32) (p : Fin 5000) (q : Fin 32) :
    k1_pay1 (F := Ideal) x0 x1 (ix2 p q) = x0 (ix2 p q) * x1 (ix2 p (0 : Fin 1)) := by
  unfold k1_pay1
  simp only [shapeCast_self]
  exact congrArg (x0 (ix2 p q) * ·) (broadcastTo_a1_ab_apply x1 broadcasts_S5000x1_S5000x32 p q)

/-- The printed index maps over the grid: all three windows sit at block t of the rows. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Where an entry of point t's output block sits in the output array: row 5000·t + p, column q. -/
theorem emb_out (t : Fin cfg1.N) (p : Fin 5000) (q : Fin 32) (r : Fin 3300000) (hr : r.val = t.val * 5000 + p.val) :
    ((cfg1.win 2).blk t).view.emb (ix2 p q) = (ix2 r q : S3300000x32.Idx) := by
  obtain ⟨-, -, -, -, e20, e21⟩ := idx_facts t
  funext a; apply Fin.ext
  match a with
  | ⟨0, _⟩ => show win1_2.index t (0 : Fin 2) * 5000 + 1 * p.val = r.val; rw [e20, hr]; omega
  | ⟨1, _⟩ => show win1_2.index t (1 : Fin 2) * 32 + 1 * q.val = q.val; rw [e21]; omega

/-- The feature window's block at point t holds rows 5000·t … of the feature array. -/
theorem left_at (c : Dev nD) (t : Fin cfg1.N) (p : Fin 5000) (q : Fin 32) (r : Fin 3300000) (hr : r.val = t.val * 5000 + p.val) :
    iblk1 V c 0 t (ix2 p q) = (V c main_v38 : S3300000x32.Idx → EReal) (ix2 r q) := by
  obtain ⟨e00, e01, -, -, -, -⟩ := idx_facts t
  unfold iblk1
  rw [View.read_apply]
  show V c main_v38 _ = V c main_v38 _
  refine congrArg _ (funext fun a => Fin.ext ?_)
  match a with
  | ⟨0, _⟩ => show win1_0.index t (0 : Fin 2) * 5000 + 1 * p.val = r.val; rw [e00, hr]; omega
  | ⟨1, _⟩ => show win1_0.index t (1 : Fin 2) * 32 + 1 * q.val = q.val; rw [e01]; omega

/-- The weight window's block at point t holds rows 5000·t … of the weight column. -/
theorem right_at (c : Dev nD) (t : Fin cfg1.N) (p : Fin 5000) (u : Fin 1) (r : Fin 3300000) (hr : r.val = t.val * 5000 + p.val) :
    iblk1 V c 1 t (ix2 p u) = (V c main_v30 : S3300000x1.Idx → EReal) (ix2 r u) := by
  obtain ⟨-, -, e10, e11, -, -⟩ := idx_facts t
  unfold iblk1
  rw [View.read_apply]
  show V c main_v30 _ = V c main_v30 _
  refine congrArg _ (funext fun a => Fin.ext ?_)
  match a with
  | ⟨0, _⟩ => show win1_1.index t (0 : Fin 2) * 5000 + 1 * p.val = r.val; rw [e10, hr]; omega
  | ⟨1, _⟩ => show win1_1.index t (1 : Fin 2) * 1 + 1 * u.val = u.val; rw [e11]; omega

/-- What point t writes back is block t of the row-scaled feature array, of the arrays as the region finds them. -/
theorem flushed_eq (c : Dev nD) (t : Fin cfg1.N) :
    (dat1 V c).flushed 2 t = ((cfg1.win 2).blk t).view.read (Elt Ideal) (rowScaled (V c main_v38) (V c main_v30)) := by
  show (cfg1.win 2).cut (grid1.coords t) ((dat1 V c).after 2 t) = _
  rw [after1_2]
  unfold out1_2
  rw [View.canon_unit_zero hz]
  simp only [View.ld_unit_zero (S := S5000x32) hz, View.ld_unit_zero (S := S5000x1) hz]
  funext j
  obtain ⟨p, q, rfl⟩ : ∃ (p : Fin 5000) (q : Fin 32), j = ix2 p q := ⟨j 0, j 1, eq_ix2 j⟩
  have hN : cfg1.N = 660 := N_1
  have ht := t.isLt
  show k1_pay1 (iblk1 V c 0 t) (iblk1 V c 1 t) (ix2 p q) = rowScaled (V c main_v38) (V c main_v30) (((cfg1.win 2).blk t).view.emb (ix2 p q))
  rw [emb_out t p q ⟨t.val * 5000 + p.val, by omega⟩ rfl]
  refine (pay_at _ _ p q).trans ?_
  rw [rowScaled_at, left_at V c t p q ⟨t.val * 5000 + p.val, by omega⟩ rfl, right_at V c t p 0 ⟨t.val * 5000 + p.val, by omega⟩ rfl]

/-- An index of the output array is in point t's block iff each coordinate is in the block's range on its axis. -/
theorem mem_blk (t : Fin cfg1.N) (i : S3300000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v39).slice (win1_2.rect t)).set ↔ _
  rw [View.set_slice_whole, Rect.mem_set_unit]
  exact Iff.rfl

/-- Row r of the output lies in the block of point r / 5000: the blocks tile the array. -/
theorem cover (i : S3300000x32.Idx) : ∃ t : Fin cfg1.N, (cfg1.win 2).flush t = true ∧ i ∈ ((cfg1.win 2).blk t).view.set := by
  have hN : cfg1.N = 660 := N_1
  have hi0 : (i 0).val < 3300000 := (i 0).isLt
  have hi1 : (i 1).val < 32 := (i 1).isLt
  refine ⟨⟨(i 0).val / 5000, by omega⟩, flush1_2 _, ?_⟩
  rw [mem_blk]
  obtain ⟨-, -, -, -, e20, e21⟩ := idx_facts ⟨(i 0).val / 5000, by omega⟩
  intro a
  match a with
  | ⟨0, _⟩ => show win1_2.index _ (0 : Fin 2) * 5000 ≤ (i 0).val ∧ (i 0).val < win1_2.index _ (0 : Fin 2) * 5000 + 5000; rw [e20]; show (i 0).val / 5000 * 5000 ≤ (i 0).val ∧ (i 0).val < (i 0).val / 5000 * 5000 + 5000; omega
  | ⟨1, _⟩ => show win1_2.index _ (1 : Fin 2) * 32 ≤ (i 1).val ∧ (i 1).val < win1_2.index _ (1 : Fin 2) * 32 + 32; rw [e21]; omega

/-- After the region the output array holds the row-scaled features, of the arrays as the region found them. -/
theorem final (c : Dev nD) : (dat1 V c).arrAt 2 cfg1.N = rowScaled (V c main_v38) (V c main_v30) :=
  (dat1 V c).arrAt_eq_of_cover 2 (rowScaled (V c main_v38) (V c main_v30)) (fun t _ => flushed_eq V c t) cover

end Cert.KernelIdeal.Scale1

end
-- ==== Proof.Scale2.lean ====
/-
  The second layer's edge messages scaled by the edge weights, block by block of the grid.

  The region runs over 660 grid points; point t loads rows 5000·t … 5000·t + 4999 of the gathered features
  (3300000 × 16) and of the weight column (3300000 × 1), repeats the column along the 16 lanes, multiplies, and writes
  the 5000 × 16 product back as the same rows of the output. Entry (p, q) of a block is feature(p, q) · weight(p, 0), so
  every block written back is a block of ONE array — each row of the features times that row's weight —, the blocks
  tile the output, and the output ends holding that array.
-/
import proofs.«165151_j37022618091719_2_alg».proof.Proof.Gen.KernelIdeal.Frame
import proofs.«165151_j37022618091719_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Scale2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Each row of h times that row's entry of the column n. -/
def rowScaled (h : S3300000x16.Idx → EReal) (n : S3300000x1.Idx → EReal) : S3300000x16.Idx → EReal :=
  fun i => h i * n (ix2 (i 0) (0 : Fin 1))

theorem rowScaled_at (h : S3300000x16.Idx → EReal) (n : S3300000x1.Idx → EReal) (r : Fin 3300000) (q : Fin 16) :
    rowScaled h n (ix2 r q) = h (ix2 r q) * n (ix2 r (0 : Fin 1)) := rfl

/-- The body's one stored value at entry (p, q) of the block. -/
theorem pay_at (x0 : Vec Ideal S5000x16 .f32) (x1 : Vec Ideal S5000x1 .f32) (p : Fin 5000) (q : Fin 16) :
    k4_pay1 (F := Ideal) x0 x1 (ix2 p q) = x0 (ix2 p q) * x1 (ix2 p (0 : Fin 1)) := by
  unfold k4_pay1
  simp only [shapeCast_self]
  exact congrArg (x0 (ix2 p q) * ·) (broadcastTo_a1_ab_apply x1 broadcasts_S5000x1_S5000x16 p q)

/-- The printed index maps over the grid: all three windows sit at block t of the rows. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Where an entry of point t's output block sits in the output array: row 5000·t + p, column q. -/
theorem emb_out (t : Fin cfg4.N) (p : Fin 5000) (q : Fin 16) (r : Fin 3300000) (hr : r.val = t.val * 5000 + p.val) :
    ((cfg4.win 2).blk t).view.emb (ix2 p q) = (ix2 r q : S3300000x16.Idx) := by
  obtain ⟨-, -, -, -, e20, e21⟩ := idx_facts t
  funext a; apply Fin.ext
  match a with
  | ⟨0, _⟩ => show win4_2.index t (0 : Fin 2) * 5000 + 1 * p.val = r.val; rw [e20, hr]; omega
  | ⟨1, _⟩ => show win4_2.index t (1 : Fin 2) * 16 + 1 * q.val = q.val; rw [e21]; omega

/-- The feature window's block at point t holds rows 5000·t … of the feature array. -/
theorem left_at (c : Dev nD) (t : Fin cfg4.N) (p : Fin 5000) (q : Fin 16) (r : Fin 3300000) (hr : r.val = t.val * 5000 + p.val) :
    iblk4 V c 0 t (ix2 p q) = (V c main_v52 : S3300000x16.Idx → EReal) (ix2 r q) := by
  obtain ⟨e00, e01, -, -, -, -⟩ := idx_facts t
  unfold iblk4
  rw [View.read_apply]
  show V c main_v52 _ = V c main_v52 _
  refine congrArg _ (funext fun a => Fin.ext ?_)
  match a with
  | ⟨0, _⟩ => show win4_0.index t (0 : Fin 2) * 5000 + 1 * p.val = r.val; rw [e00, hr]; omega
  | ⟨1, _⟩ => show win4_0.index t (1 : Fin 2) * 16 + 1 * q.val = q.val; rw [e01]; omega

/-- The weight window's block at point t holds rows 5000·t … of the weight column. -/
theorem right_at (c : Dev nD) (t : Fin cfg4.N) (p : Fin 5000) (u : Fin 1) (r : Fin 3300000) (hr : r.val = t.val * 5000 + p.val) :
    iblk4 V c 1 t (ix2 p u) = (V c main_v30 : S3300000x1.Idx → EReal) (ix2 r u) := by
  obtain ⟨-, -, e10, e11, -, -⟩ := idx_facts t
  unfold iblk4
  rw [View.read_apply]
  show V c main_v30 _ = V c main_v30 _
  refine congrArg _ (funext fun a => Fin.ext ?_)
  match a with
  | ⟨0, _⟩ => show win4_1.index t (0 : Fin 2) * 5000 + 1 * p.val = r.val; rw [e10, hr]; omega
  | ⟨1, _⟩ => show win4_1.index t (1 : Fin 2) * 1 + 1 * u.val = u.val; rw [e11]; omega

/-- What point t writes back is block t of the row-scaled feature array, of the arrays as the region finds them. -/
theorem flushed_eq (c : Dev nD) (t : Fin cfg4.N) :
    (dat4 V c).flushed 2 t = ((cfg4.win 2).blk t).view.read (Elt Ideal) (rowScaled (V c main_v52) (V c main_v30)) := by
  show (cfg4.win 2).cut (grid4.coords t) ((dat4 V c).after 2 t) = _
  rw [after4_2]
  unfold out4_2
  rw [View.canon_unit_zero hz]
  simp only [View.ld_unit_zero (S := S5000x16) hz, View.ld_unit_zero (S := S5000x1) hz]
  funext j
  obtain ⟨p, q, rfl⟩ : ∃ (p : Fin 5000) (q : Fin 16), j = ix2 p q := ⟨j 0, j 1, eq_ix2 j⟩
  have hN : cfg4.N = 660 := N_4
  have ht := t.isLt
  show k4_pay1 (iblk4 V c 0 t) (iblk4 V c 1 t) (ix2 p q) = rowScaled (V c main_v52) (V c main_v30) (((cfg4.win 2).blk t).view.emb (ix2 p q))
  rw [emb_out t p q ⟨t.val * 5000 + p.val, by omega⟩ rfl]
  refine (pay_at _ _ p q).trans ?_
  rw [rowScaled_at, left_at V c t p q ⟨t.val * 5000 + p.val, by omega⟩ rfl, right_at V c t p 0 ⟨t.val * 5000 + p.val, by omega⟩ rfl]

/-- An index of the output array is in point t's block iff each coordinate is in the block's range on its axis. -/
theorem mem_blk (t : Fin cfg4.N) (i : S3300000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v53).slice (win4_2.rect t)).set ↔ _
  rw [View.set_slice_whole, Rect.mem_set_unit]
  exact Iff.rfl

/-- Row r of the output lies in the block of point r / 5000: the blocks tile the array. -/
theorem cover (i : S3300000x16.Idx) : ∃ t : Fin cfg4.N, (cfg4.win 2).flush t = true ∧ i ∈ ((cfg4.win 2).blk t).view.set := by
  have hN : cfg4.N = 660 := N_4
  have hi0 : (i 0).val < 3300000 := (i 0).isLt
  have hi1 : (i 1).val < 16 := (i 1).isLt
  refine ⟨⟨(i 0).val / 5000, by omega⟩, flush4_2 _, ?_⟩
  rw [mem_blk]
  obtain ⟨-, -, -, -, e20, e21⟩ := idx_facts ⟨(i 0).val / 5000, by omega⟩
  intro a
  match a with
  | ⟨0, _⟩ => show win4_2.index _ (0 : Fin 2) * 5000 ≤ (i 0).val ∧ (i 0).val < win4_2.index _ (0 : Fin 2) * 5000 + 5000; rw [e20]; show (i 0).val / 5000 * 5000 ≤ (i 0).val ∧ (i 0).val < (i 0).val / 5000 * 5000 + 5000; omega
  | ⟨1, _⟩ => show win4_2.index _ (1 : Fin 2) * 16 ≤ (i 1).val ∧ (i 1).val < win4_2.index _ (1 : Fin 2) * 16 + 16; rw [e21]; omega

/-- After the region the output array holds the row-scaled features, of the arrays as the region found them. -/
theorem final (c : Dev nD) : (dat4 V c).arrAt 2 cfg4.N = rowScaled (V c main_v52) (V c main_v30) :=
  (dat4 V c).arrAt_eq_of_cover 2 (rowScaled (V c main_v52) (V c main_v30)) (fun t _ => flushed_eq V c t) cover

end Cert.KernelIdeal.Scale2

end
-- ==== Proof.Bias1.lean ====
/-
  The first layer's bias and rectifier, block by block of the grid.

  The region runs over 20 grid points; point t loads rows 5000·t … 5000·t + 4999 of the aggregated features
  (100000 × 32) and the bias as one row (1 × 32), repeats the row down the block, adds, takes the maximum with zero, and writes
  the 5000 × 32 block back as the same rows of the output. Entry (p, q) of a block is max(agg(p, q) + bias(0, q), 0), so
  every block written back is a block of ONE array, the blocks tile the output, and the output ends holding that array.
-/
import proofs.«165151_j37022618091719_2_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Bias1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one-row array b added to every row of a, then the maximum with zero. -/
def biasRelu (a : S100000x32.Idx → EReal) (b : S1x32.Idx → EReal) : S100000x32.Idx → EReal :=
  fun i => max (a i + b (ix2 (0 : Fin 1) (i 1))) (FloatOps.ofBits (F := Ideal) .f32 0x00000000#32)

theorem biasRelu_at (a : S100000x32.Idx → EReal) (b : S1x32.Idx → EReal) (r : Fin 100000) (q : Fin 32) :
    biasRelu a b (ix2 r q) = max (a (ix2 r q) + b (ix2 (0 : Fin 1) q)) (FloatOps.ofBits (F := Ideal) .f32 0x00000000#32) := rfl

/-- The body's one stored value at entry (p, q) of the block. -/
theorem pay_at (x0 : Vec Ideal S5000x32 .f32) (x1 : Vec Ideal S1x32 .f32) (p : Fin 5000) (q : Fin 32) :
    k2_pay1 (F := Ideal) x0 x1 (ix2 p q) = max (x0 (ix2 p q) + x1 (ix2 (0 : Fin 1) q)) (FloatOps.ofBits (F := Ideal) .f32 0x00000000#32) := by
  unfold k2_pay1
  simp only [shapeCast_self]
  exact congrArg (fun z => max (x0 (ix2 p q) + z) (FloatOps.ofBits (F := Ideal) .f32 0x00000000#32)) (broadcastTo_1b_ab_apply x1 broadcasts_S1x32_S5000x32 p q)

/-- The printed index maps over the grid: the row windows sit at block t, the bias window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where an entry of point t's output block sits in the output array: row 5000·t + p, column q. -/
theorem emb_out (t : Fin cfg2.N) (p : Fin 5000) (q : Fin 32) (r : Fin 100000) (hr : r.val = t.val * 5000 + p.val) :
    ((cfg2.win 2).blk t).view.emb (ix2 p q) = (ix2 r q : S100000x32.Idx) := by
  obtain ⟨-, -, -, -, e20, e21⟩ := idx_facts t
  funext a; apply Fin.ext
  match a with
  | ⟨0, _⟩ => show win2_2.index t (0 : Fin 2) * 5000 + 1 * p.val = r.val; rw [e20, hr]; omega
  | ⟨1, _⟩ => show win2_2.index t (1 : Fin 2) * 32 + 1 * q.val = q.val; rw [e21]; omega

/-- The feature window's block at point t holds rows 5000·t … of the aggregated features. -/
theorem left_at (c : Dev nD) (t : Fin cfg2.N) (p : Fin 5000) (q : Fin 32) (r : Fin 100000) (hr : r.val = t.val * 5000 + p.val) :
    iblk2 V c 0 t (ix2 p q) = (V c main_v42 : S100000x32.Idx → EReal) (ix2 r q) := by
  obtain ⟨e00, e01, -, -, -, -⟩ := idx_facts t
  unfold iblk2
  rw [View.read_apply]
  show V c main_v42 _ = V c main_v42 _
  refine congrArg _ (funext fun a => Fin.ext ?_)
  match a with
  | ⟨0, _⟩ => show win2_0.index t (0 : Fin 2) * 5000 + 1 * p.val = r.val; rw [e00, hr]; omega
  | ⟨1, _⟩ => show win2_0.index t (1 : Fin 2) * 32 + 1 * q.val = q.val; rw [e01]; omega

/-- The bias window's block at every point is the whole one-row array. -/
theorem right_at (c : Dev nD) (t : Fin cfg2.N) (u : Fin 1) (q : Fin 32) :
    iblk2 V c 1 t (ix2 u q) = (V c main_v43 : S1x32.Idx → EReal) (ix2 u q) := by
  obtain ⟨-, -, e10, e11, -, -⟩ := idx_facts t
  unfold iblk2
  rw [View.read_apply]
  show V c main_v43 _ = V c main_v43 _
  refine congrArg _ (funext fun a => Fin.ext ?_)
  match a with
  | ⟨0, _⟩ => show win2_1.index t (0 : Fin 2) * 1 + 1 * u.val = u.val; rw [e10]; omega
  | ⟨1, _⟩ => show win2_1.index t (1 : Fin 2) * 32 + 1 * q.val = q.val; rw [e11]; omega

/-- What point t writes back is block t of that one array, of the arrays as the region finds them. -/
theorem flushed_eq (c : Dev nD) (t : Fin cfg2.N) :
    (dat2 V c).flushed 2 t = ((cfg2.win 2).blk t).view.read (Elt Ideal) (biasRelu (V c main_v42) (V c main_v43)) := by
  show (cfg2.win 2).cut (grid2.coords t) ((dat2 V c).after 2 t) = _
  rw [after2_2]
  unfold out2_2
  rw [View.canon_unit_zero hz]
  simp only [View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  have hN : cfg2.N = 20 := N_2
  have ht := t.isLt
  show k2_pay1 (iblk2 V c 0 t) (iblk2 V c 1 t) (ix2 p q) = biasRelu (V c main_v42) (V c main_v43) (((cfg2.win 2).blk t).view.emb (ix2 p q))
  rw [emb_out t p q ⟨t.val * 5000 + p.val, by omega⟩ rfl]
  refine (pay_at _ _ p q).trans ?_
  rw [biasRelu_at, left_at V c t p q ⟨t.val * 5000 + p.val, by omega⟩ rfl, right_at V c t 0 q]

/-- An index of the output array is in point t's block iff each coordinate is in the block's range on its axis. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v44).slice (win2_2.rect t)).set ↔ _
  rw [View.set_slice_whole, Rect.mem_set_unit]
  exact Iff.rfl

/-- Row r of the output lies in the block of point r / 5000: the blocks tile the array. -/
theorem cover (i : S100000x32.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 32 := (i 1).isLt
  refine ⟨⟨(i 0).val / 5000, by omega⟩, flush2_2 _, ?_⟩
  rw [mem_blk]
  obtain ⟨-, -, -, -, e20, e21⟩ := idx_facts ⟨(i 0).val / 5000, by omega⟩
  intro a
  match a with
  | ⟨0, _⟩ => show win2_2.index _ (0 : Fin 2) * 5000 ≤ (i 0).val ∧ (i 0).val < win2_2.index _ (0 : Fin 2) * 5000 + 5000; rw [e20]; show (i 0).val / 5000 * 5000 ≤ (i 0).val ∧ (i 0).val < (i 0).val / 5000 * 5000 + 5000; omega
  | ⟨1, _⟩ => show win2_2.index _ (1 : Fin 2) * 32 ≤ (i 1).val ∧ (i 1).val < win2_2.index _ (1 : Fin 2) * 32 + 32; rw [e21]; omega

/-- After the region the output array holds that one array, of the input arrays as the region found them. -/
theorem final (c : Dev nD) : (dat2 V c).arrAt 2 cfg2.N = biasRelu (V c main_v42) (V c main_v43) :=
  (dat2 V c).arrAt_eq_of_cover 2 (biasRelu (V c main_v42) (V c main_v43)) (fun t _ => flushed_eq V c t) cover

end Cert.KernelIdeal.Bias1

end
-- ==== Proof.Bias2.lean ====
/-
  The second layer's bias, block by block of the grid.

  The region runs over 20 grid points; point t loads rows 5000·t … 5000·t + 4999 of the aggregated features
  (100000 × 16) and the bias as one row (1 × 16), repeats the row down the block, adds and writes
  the 5000 × 16 block back as the same rows of the output. Entry (p, q) of a block is agg(p, q) + bias(0, q), so
  every block written back is a block of ONE array, the blocks tile the output, and the output ends holding that array.
-/
import proofs.«165151_j37022618091719_2_alg».proof.Proof.Gen.KernelIdeal.Frame
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one-row array b added to every row of a. -/
def biasAdded (a : S100000x16.Idx → EReal) (b : S1x16.Idx → EReal) : S100000x16.Idx → EReal :=
  fun i => a i + b (ix2 (0 : Fin 1) (i 1))

theorem biasAdded_at (a : S100000x16.Idx → EReal) (b : S1x16.Idx → EReal) (r : Fin 100000) (q : Fin 16) :
    biasAdded a b (ix2 r q) = a (ix2 r q) + b (ix2 (0 : Fin 1) q) := rfl

/-- The body's one stored value at entry (p, q) of the block. -/
theorem pay_at (x0 : Vec Ideal S5000x16 .f32) (x1 : Vec Ideal S1x16 .f32) (p : Fin 5000) (q : Fin 16) :
    k5_pay1 (F := Ideal) x0 x1 (ix2 p q) = x0 (ix2 p q) + x1 (ix2 (0 : Fin 1) q) := by
  unfold k5_pay1
  simp only [shapeCast_self]
  exact congrArg (x0 (ix2 p q) + ·) (broadcastTo_1b_ab_apply x1 broadcasts_S1x16_S5000x16 p q)

/-- The printed index maps over the grid: the row windows sit at block t, the bias window at block 0. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Where an entry of point t's output block sits in the output array: row 5000·t + p, column q. -/
theorem emb_out (t : Fin cfg5.N) (p : Fin 5000) (q : Fin 16) (r : Fin 100000) (hr : r.val = t.val * 5000 + p.val) :
    ((cfg5.win 2).blk t).view.emb (ix2 p q) = (ix2 r q : S100000x16.Idx) := by
  obtain ⟨-, -, -, -, e20, e21⟩ := idx_facts t
  funext a; apply Fin.ext
  match a with
  | ⟨0, _⟩ => show win5_2.index t (0 : Fin 2) * 5000 + 1 * p.val = r.val; rw [e20, hr]; omega
  | ⟨1, _⟩ => show win5_2.index t (1 : Fin 2) * 16 + 1 * q.val = q.val; rw [e21]; omega

/-- The feature window's block at point t holds rows 5000·t … of the aggregated features. -/
theorem left_at (c : Dev nD) (t : Fin cfg5.N) (p : Fin 5000) (q : Fin 16) (r : Fin 100000) (hr : r.val = t.val * 5000 + p.val) :
    iblk5 V c 0 t (ix2 p q) = (V c main_v56 : S100000x16.Idx → EReal) (ix2 r q) := by
  obtain ⟨e00, e01, -, -, -, -⟩ := idx_facts t
  unfold iblk5
  rw [View.read_apply]
  show V c main_v56 _ = V c main_v56 _
  refine congrArg _ (funext fun a => Fin.ext ?_)
  match a with
  | ⟨0, _⟩ => show win5_0.index t (0 : Fin 2) * 5000 + 1 * p.val = r.val; rw [e00, hr]; omega
  | ⟨1, _⟩ => show win5_0.index t (1 : Fin 2) * 16 + 1 * q.val = q.val; rw [e01]; omega

/-- The bias window's block at every point is the whole one-row array. -/
theorem right_at (c : Dev nD) (t : Fin cfg5.N) (u : Fin 1) (q : Fin 16) :
    iblk5 V c 1 t (ix2 u q) = (V c main_v57 : S1x16.Idx → EReal) (ix2 u q) := by
  obtain ⟨-, -, e10, e11, -, -⟩ := idx_facts t
  unfold iblk5
  rw [View.read_apply]
  show V c main_v57 _ = V c main_v57 _
  refine congrArg _ (funext fun a => Fin.ext ?_)
  match a with
  | ⟨0, _⟩ => show win5_1.index t (0 : Fin 2) * 1 + 1 * u.val = u.val; rw [e10]; omega
  | ⟨1, _⟩ => show win5_1.index t (1 : Fin 2) * 16 + 1 * q.val = q.val; rw [e11]; omega

/-- What point t writes back is block t of that one array, of the arrays as the region finds them. -/
theorem flushed_eq (c : Dev nD) (t : Fin cfg5.N) :
    (dat5 V c).flushed 2 t = ((cfg5.win 2).blk t).view.read (Elt Ideal) (biasAdded (V c main_v56) (V c main_v57)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  funext j
  obtain ⟨p, q, rfl⟩ : ∃ (p : Fin 5000) (q : Fin 16), j = ix2 p q := ⟨j 0, j 1, eq_ix2 j⟩
  have hN : cfg5.N = 20 := N_5
  have ht := t.isLt
  show k5_pay1 (iblk5 V c 0 t) (iblk5 V c 1 t) (ix2 p q) = biasAdded (V c main_v56) (V c main_v57) (((cfg5.win 2).blk t).view.emb (ix2 p q))
  rw [emb_out t p q ⟨t.val * 5000 + p.val, by omega⟩ rfl]
  refine (pay_at _ _ p q).trans ?_
  rw [biasAdded_at, left_at V c t p q ⟨t.val * 5000 + p.val, by omega⟩ rfl, right_at V c t 0 q]

/-- An index of the output array is in point t's block iff each coordinate is in the block's range on its axis. -/
theorem mem_blk (t : Fin cfg5.N) (i : S100000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v58).slice (win5_2.rect t)).set ↔ _
  rw [View.set_slice_whole, Rect.mem_set_unit]
  exact Iff.rfl

/-- Row r of the output lies in the block of point r / 5000: the blocks tile the array. -/
theorem cover (i : S100000x16.Idx) : ∃ t : Fin cfg5.N, (cfg5.win 2).flush t = true ∧ i ∈ ((cfg5.win 2).blk t).view.set := by
  have hN : cfg5.N = 20 := N_5
  have hi0 : (i 0).val < 100000 := (i 0).isLt
  have hi1 : (i 1).val < 16 := (i 1).isLt
  refine ⟨⟨(i 0).val / 5000, by omega⟩, flush5_2 _, ?_⟩
  rw [mem_blk]
  obtain ⟨-, -, -, -, e20, e21⟩ := idx_facts ⟨(i 0).val / 5000, by omega⟩
  intro a
  match a with
  | ⟨0, _⟩ => show win5_2.index _ (0 : Fin 2) * 5000 ≤ (i 0).val ∧ (i 0).val < win5_2.index _ (0 : Fin 2) * 5000 + 5000; rw [e20]; show (i 0).val / 5000 * 5000 ≤ (i 0).val ∧ (i 0).val < (i 0).val / 5000 * 5000 + 5000; omega
  | ⟨1, _⟩ => show win5_2.index _ (1 : Fin 2) * 16 ≤ (i 1).val ∧ (i 1).val < win5_2.index _ (1 : Fin 2) * 16 + 16; rw [e21]; omega

/-- After the region the output array holds that one array, of the input arrays as the region found them. -/
theorem final (c : Dev nD) : (dat5 V c).arrAt 2 cfg5.N = biasAdded (V c main_v56) (V c main_v57) :=
  (dat5 V c).arrAt_eq_of_cover 2 (biasAdded (V c main_v56) (V c main_v57)) (fun t _ => flushed_eq V c t) cover

end Cert.KernelIdeal.Bias2

end
-- ==== Proof.Bridge.lean ====
/-
  Each region's array is the reference's stage of the same inputs.

  The six regions leave, as arrays of their inputs: rows times a matrix (twice), every row of the gathered features
  times that row's edge weight (twice), and the bias row added to every row (once followed by the maximum with zero).
  The reference computes the same six arrays with one host operation each — a matrix product contracted over the
  shared axis; a product with the weight vector repeated along the feature axis; a sum with the bias repeated down
  the rows, and a maximum with the zero array. Entry by entry the two are one expression: a matrix product's entry is
  the sum over the shared axis at the ideal values, a repeated vector read at (r, q) is the vector at r (the weight)
  or at q (the bias), and the kernel's column and row casts read the same entries. The second layer's reference
  recomputes the edge weights from the edge list: the same term again.
-/
import proofs.«165151_j37022618091719_2_alg».proof.Proof.Linear1
import proofs.«165151_j37022618091719_2_alg».proof.Proof.Linear2
import proofs.«165151_j37022618091719_2_alg».proof.Proof.Scale1
import proofs.«165151_j37022618091719_2_alg».proof.Proof.Scale2
import proofs.«165151_j37022618091719_2_alg».proof.Proof.Bias1
import proofs.«165151_j37022618091719_2_alg».proof.Proof.Bias2
import proofs.«165151_j37022618091719_2_alg».proof.Proof.ReadP
import proofs.«165151_j37022618091719_2_alg».proof.Proof.LibKeepdims
import Idealize.ShloMosaic.Lib.ValueLayout

set_option maxRecDepth 16384

noncomputable section

namespace Cert.KernelIdeal.Bridge

open Idealize.ShloMosaic Idealize.ShloMosaic.ValueIdx
open Cert.ReferenceIdeal.ReadP

variable (x0 : (⟨Cert.ReferenceIdeal.S100000x16, .f32⟩ : BufTy).Contents (Elt Ideal)) (x1 : (⟨Cert.ReferenceIdeal.S16x32, .f32⟩ : BufTy).Contents (Elt Ideal)) (x2 : (⟨Cert.ReferenceIdeal.S32, .f32⟩ : BufTy).Contents (Elt Ideal)) (x3 : (⟨Cert.ReferenceIdeal.S32x16, .f32⟩ : BufTy).Contents (Elt Ideal)) (x4 : (⟨Cert.ReferenceIdeal.S16, .f32⟩ : BufTy).Contents (Elt Ideal)) (x5 : (⟨Cert.ReferenceIdeal.S2x3200000, .i32⟩ : BufTy).Contents (Elt Ideal))

/-- The first layer's product. -/
theorem linear1 : Cert.KernelIdeal.Linear1.rowsTimes x0 x1 = val_main_v30 (F := Ideal) x0 x1 := by
  funext i
  rw [val_main_v30_apply]
  unfold Cert.KernelIdeal.Linear1.rowsTimes
  refine Finset.sum_congr rfl fun k _ => ?_
  congr 1 <;> exact congrArg _ (funext fun a => by match a with | ⟨0, _⟩ => rfl | ⟨1, _⟩ => rfl)

/-- The second layer's product, of the first layer's rectified output. -/
theorem linear2 : Cert.KernelIdeal.Linear2.rowsTimes (val_main_v47 (F := Ideal) x0 x1 x2 x5) x3 = val_main_v74 (F := Ideal) x0 x1 x2 x3 x5 := by
  funext i
  rw [val_main_v74_apply]
  unfold Cert.KernelIdeal.Linear2.rowsTimes
  generalize val_main_v47 (F := Ideal) x0 x1 x2 x5 = y
  refine Finset.sum_congr rfl fun k _ => ?_
  congr 1 <;> exact congrArg _ (funext fun a => by match a with | ⟨0, _⟩ => rfl | ⟨1, _⟩ => rfl)

/-- The second layer's reference recomputes the edge weights: the same term as the first layer's. -/
theorem weights_again : val_main_v73 (F := Ideal) x5 = val_main_v29 (F := Ideal) x5 := rfl

/-- The first layer's messages: the gathered features, each row times its edge's weight. -/
theorem scale1 :
    Cert.KernelIdeal.Scale1.rowScaled (val_main_v37 (F := Ideal) x0 x1 x5)
        (shapeCast Cert.KernelIdeal.S3300000x1 (val_main_v29 (F := Ideal) x5) Cert.KernelIdeal.Gen.shapeCasts_S3300000_S3300000x1)
      = val_main_v40 (F := Ideal) x0 x1 x5 := by
  funext i
  obtain ⟨r, q, rfl⟩ : ∃ (r : Fin 3300000) (q : Fin 32), i = ix2 r q := ⟨i 0, i 1, eq_ix2 i⟩
  rw [Cert.KernelIdeal.Scale1.rowScaled_at, val_main_v40_apply, val_main_v39_apply, val_main_v38_apply]
  refine congrArg₂ (· * ·) rfl ?_
  refine (shapeCast_a_a1_apply _ _ r 0).trans ?_
  exact congrArg _ (funext fun a => by match a with | ⟨0, _⟩ => rfl)

/-- The second layer's messages. -/
theorem scale2 :
    Cert.KernelIdeal.Scale2.rowScaled (val_main_v81 (F := Ideal) x0 x1 x2 x3 x5)
        (shapeCast Cert.KernelIdeal.S3300000x1 (val_main_v29 (F := Ideal) x5) Cert.KernelIdeal.Gen.shapeCasts_S3300000_S3300000x1)
      = val_main_v84 (F := Ideal) x0 x1 x2 x3 x5 := by
  funext i
  obtain ⟨r, q, rfl⟩ : ∃ (r : Fin 3300000) (q : Fin 16), i = ix2 r q := ⟨i 0, i 1, eq_ix2 i⟩
  rw [Cert.KernelIdeal.Scale2.rowScaled_at, val_main_v84_apply, val_main_v83_apply, val_main_v82_apply, weights_again]
  refine congrArg₂ (· * ·) rfl ?_
  refine (shapeCast_a_a1_apply _ _ r 0).trans ?_
  exact congrArg _ (funext fun a => by match a with | ⟨0, _⟩ => rfl)

/-- The first layer's output: the aggregate plus the bias, then the maximum with zero. -/
theorem bias1 :
    Cert.KernelIdeal.Bias1.biasRelu (val_main_v43 (F := Ideal) x0 x1 x5) (shapeCast Cert.KernelIdeal.S1x32 x2 Cert.KernelIdeal.Gen.shapeCasts_S32_S1x32)
      = val_main_v47 (F := Ideal) x0 x1 x2 x5 := by
  funext i
  obtain ⟨r, q, rfl⟩ : ∃ (r : Fin 100000) (q : Fin 32), i = ix2 r q := ⟨i 0, i 1, eq_ix2 i⟩
  rw [Cert.KernelIdeal.Bias1.biasRelu_at, val_main_v47_apply, val_main_v46_apply, val_main_v45_apply, val_main_v44_apply,
    val_main_call1_v0_apply, val_main_call1_cst_apply]
  refine congrArg (fun z => max (val_main_v43 (F := Ideal) x0 x1 x5 (ix2 r q) + z) (FloatOps.ofBits (F := Ideal) .f32 0x00000000#32)) ?_
  refine (shapeCast_a_1a_apply _ _ 0 q).trans ?_
  exact congrArg _ (funext fun a => by match a with | ⟨0, _⟩ => rfl)

/-- The second layer's output: the aggregate plus the bias. -/
theorem bias2 :
    Cert.KernelIdeal.Bias2.biasAdded (val_main_v87 (F := Ideal) x0 x1 x2 x3 x5) (shapeCast Cert.KernelIdeal.S1x16 x4 Cert.KernelIdeal.Gen.shapeCasts_S16_S1x16)
      = val_main_v90 (F := Ideal) x0 x1 x2 x3 x4 x5 := by
  funext i
  obtain ⟨r, q, rfl⟩ : ∃ (r : Fin 100000) (q : Fin 16), i = ix2 r q := ⟨i 0, i 1, eq_ix2 i⟩
  rw [Cert.KernelIdeal.Bias2.biasAdded_at, val_main_v90_apply, val_main_v89_apply, val_main_v88_apply]
  refine congrArg (fun z => val_main_v87 (F := Ideal) x0 x1 x2 x3 x5 (ix2 r q) + z) ?_
  refine (shapeCast_a_1a_apply _ _ 0 q).trans ?_
  exact congrArg _ (funext fun a => by match a with | ⟨0, _⟩ => rfl)

end Cert.KernelIdeal.Bridge

end
-- ==== Proof.KernelValue.lean ====
/-
  The kernel's result is the reference's result function of the arguments.

  The contents of the buffers are followed from the launch to the return, one segment boundary at a time. At every
  boundary the buffers that matter hold the reference's stages of the six arguments: the source and target lists and
  the edge weights from the first stretch on; after each region the array it wrote (a matrix product, the scaled
  messages, the biased and rectified aggregate, and again for the second layer); after each host stretch the rows
  gathered at the sources or the messages added up at the targets. A buffer that a segment does not write keeps its
  contents across it. At the last boundary the result array holds the reference's last stage.
-/
import proofs.«165151_j37022618091719_2_alg».proof.Proof.Gen.KernelIdeal.Frame
import proofs.«165151_j37022618091719_2_alg».proof.Proof.HostSteps
import proofs.«165151_j37022618091719_2_alg».proof.Proof.Bridge

set_option maxRecDepth 16384

noncomputable section

namespace Cert.KernelIdeal.Chain

open Cert.KernelIdeal Cert.KernelIdeal.Gen Cert.KernelIdeal.HostSteps
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Before the first region -/

theorem src3 : W3 m ρ c (Proc.devRef .tc main_v5) = val_main_v5 (F := Ideal) (m ((c.tc : Thread nD τ).loc main_arg5)) :=
  (keep_hostOps0_2_main_v5 (W2 m ρ c)).trans ((keep_hostOps0_1_main_v5 (W1 m ρ c)).trans (src_of (W0 m ρ c)))
theorem dst3 : W3 m ρ c (Proc.devRef .tc main_v6) = val_main_v6 (F := Ideal) (m ((c.tc : Thread nD τ).loc main_arg5)) :=
  (keep_hostOps0_2_main_v6 (W2 m ρ c)).trans ((keep_hostOps0_1_main_v6 (W1 m ρ c)).trans (dst_of (W0 m ρ c)))
theorem weight3 : W3 m ρ c (Proc.devRef .tc main_v30) = (shapeCast S3300000x1 (val_main_v29 (F := Ideal) (m ((c.tc : Thread nD τ).loc main_arg5))) shapeCasts_S3300000_S3300000x1) :=
  weight_of (W2 m ρ c) (m ((c.tc : Thread nD τ).loc main_arg5))
    ((keep_hostOps0_1_main_v5 (W1 m ρ c)).trans (src_of (W0 m ρ c)))
    ((keep_hostOps0_1_main_v6 (W1 m ρ c)).trans (dst_of (W0 m ρ c)))
    (dinv_of (W1 m ρ c) (m ((c.tc : Thread nD τ).loc main_arg5)) (pos_of (W0 m ρ c)) (rsqrt_of (W0 m ρ c)) (zero_of (W0 m ρ c)))
theorem arg0_3 : W3 m ρ c (Proc.devRef .tc main_arg0) = (m ((c.tc : Thread nD τ).loc main_arg0)) :=
  (keep_hostOps0_2_main_arg0 (W2 m ρ c)).trans ((keep_hostOps0_1_main_arg0 (W1 m ρ c)).trans (keep_hostOps0_main_arg0 (W0 m ρ c)))
theorem arg1_3 : W3 m ρ c (Proc.devRef .tc main_arg1) = (m ((c.tc : Thread nD τ).loc main_arg1)) :=
  (keep_hostOps0_2_main_arg1 (W2 m ρ c)).trans ((keep_hostOps0_1_main_arg1 (W1 m ρ c)).trans (keep_hostOps0_main_arg1 (W0 m ρ c)))
theorem arg2_3 : W3 m ρ c (Proc.devRef .tc main_arg2) = (m ((c.tc : Thread nD τ).loc main_arg2)) :=
  (keep_hostOps0_2_main_arg2 (W2 m ρ c)).trans ((keep_hostOps0_1_main_arg2 (W1 m ρ c)).trans (keep_hostOps0_main_arg2 (W0 m ρ c)))
theorem arg3_3 : W3 m ρ c (Proc.devRef .tc main_arg3) = (m ((c.tc : Thread nD τ).loc main_arg3)) :=
  (keep_hostOps0_2_main_arg3 (W2 m ρ c)).trans ((keep_hostOps0_1_main_arg3 (W1 m ρ c)).trans (keep_hostOps0_main_arg3 (W0 m ρ c)))
theorem arg4_3 : W3 m ρ c (Proc.devRef .tc main_arg4) = (m ((c.tc : Thread nD τ).loc main_arg4)) :=
  (keep_hostOps0_2_main_arg4 (W2 m ρ c)).trans ((keep_hostOps0_1_main_arg4 (W1 m ρ c)).trans (keep_hostOps0_main_arg4 (W0 m ρ c)))

/-! ## The first layer -/

/-- After region 0: the first product. -/
theorem prod1 : W4 m ρ c (Proc.devRef .tc main_v31) = val_main_v30 (F := Ideal) (m ((c.tc : Thread nD τ).loc main_arg0)) (m ((c.tc : Thread nD τ).loc main_arg1)) := by
  refine (W4_arr m ρ c 2).trans ((Linear1.final (V3 m ρ) c).trans ?_)
  have h0 : V3 m ρ c main_arg0 = (m ((c.tc : Thread nD τ).loc main_arg0)) := arg0_3 m ρ c
  have h1 : V3 m ρ c main_arg1 = (m ((c.tc : Thread nD τ).loc main_arg1)) := arg1_3 m ρ c
  rw [h0, h1]
  exact Bridge.linear1 _ _

/-- After the stretch that follows: the rows gathered at the sources. -/
theorem gathered1 : W5 m ρ c (Proc.devRef .tc main_v38) = val_main_v37 (F := Ideal) (m ((c.tc : Thread nD τ).loc main_arg0)) (m ((c.tc : Thread nD τ).loc main_arg1)) (m ((c.tc : Thread nD τ).loc main_arg5)) :=
  gathered1_of (W4 m ρ c) _ _ _ (prod1 m ρ c) ((W4_of_ne m ρ c main_v5 (by decide)).trans (src3 m ρ c))

/-- After region 1: the scaled messages. -/
theorem scaled1 : W6 m ρ c (Proc.devRef .tc main_v39) = val_main_v40 (F := Ideal) (m ((c.tc : Thread nD τ).loc main_arg0)) (m ((c.tc : Thread nD τ).loc main_arg1)) (m ((c.tc : Thread nD τ).loc main_arg5)) := by
  refine (W6_arr m ρ c 2).trans ((Scale1.final (V5 m ρ) c).trans ?_)
  have h0 : V5 m ρ c main_v38 = val_main_v37 (F := Ideal) (m ((c.tc : Thread nD τ).loc main_arg0)) (m ((c.tc : Thread nD τ).loc main_arg1)) (m ((c.tc : Thread nD τ).loc main_arg5)) := gathered1 m ρ c
  have h1 : V5 m ρ c main_v30 = (shapeCast S3300000x1 (val_main_v29 (F := Ideal) (m ((c.tc : Thread nD τ).loc main_arg5))) shapeCasts_S3300000_S3300000x1) := ((keep_hostOps1_main_v30 (W4 m ρ c)).trans ((W4_of_ne m ρ c main_v30 (by decide)).trans (weight3 m ρ c)))
  rw [h0, h1]
  exact Bridge.scale1 _ _ _

/-- After the stretch that follows: the messages added up at the targets, and the bias as a row. -/
theorem summed1 : W7 m ρ c (Proc.devRef .tc main_v42) = val_main_v43 (F := Ideal) (m ((c.tc : Thread nD τ).loc main_arg0)) (m ((c.tc : Thread nD τ).loc main_arg1)) (m ((c.tc : Thread nD τ).loc main_arg5)) :=
  summed1_of (W6 m ρ c) _ _ _ (scaled1 m ρ c) ((W6_of_ne m ρ c main_v6 (by decide)).trans ((keep_hostOps1_main_v6 (W4 m ρ c)).trans ((W4_of_ne m ρ c main_v6 (by decide)).trans (dst3 m ρ c))))
theorem biasrow1 : W7 m ρ c (Proc.devRef .tc main_v43) = shapeCast S1x32 (m ((c.tc : Thread nD τ).loc main_arg2)) shapeCasts_S32_S1x32 :=
  (biasrow1_of (W6 m ρ c)).trans (congrArg (fun x => shapeCast S1x32 x shapeCasts_S32_S1x32) ((W6_of_ne m ρ c main_arg2 (by decide)).trans ((keep_hostOps1_main_arg2 (W4 m ρ c)).trans ((W4_of_ne m ρ c main_arg2 (by decide)).trans (arg2_3 m ρ c)))))

/-- After region 2: the first layer's output. -/
theorem layer1 : W8 m ρ c (Proc.devRef .tc main_v44) = val_main_v47 (F := Ideal) (m ((c.tc : Thread nD τ).loc main_arg0)) (m ((c.tc : Thread nD τ).loc main_arg1)) (m ((c.tc : Thread nD τ).loc main_arg2)) (m ((c.tc : Thread nD τ).loc main_arg5)) := by
  refine (W8_arr m ρ c 2).trans ((Bias1.final (V7 m ρ) c).trans ?_)
  have h0 : V7 m ρ c main_v42 = val_main_v43 (F := Ideal) (m ((c.tc : Thread nD τ).loc main_arg0)) (m ((c.tc : Thread nD τ).loc main_arg1)) (m ((c.tc : Thread nD τ).loc main_arg5)) := summed1 m ρ c
  have h1 : V7 m ρ c main_v43 = shapeCast S1x32 (m ((c.tc : Thread nD τ).loc main_arg2)) shapeCasts_S32_S1x32 := biasrow1 m ρ c
  rw [h0, h1]
  exact Bridge.bias1 _ _ _ _

/-! ## The second layer -/

/-- After region 3: the second product. -/
theorem prod2 : W9 m ρ c (Proc.devRef .tc main_v45) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (W9_arr m ρ c 2).trans ((Linear2.final (V8 m ρ) c).trans ?_)
  have h0 : V8 m ρ c main_v44 = val_main_v47 (F := Ideal) (m ((c.tc : Thread nD τ).loc main_arg0)) (m ((c.tc : Thread nD τ).loc main_arg1)) (m ((c.tc : Thread nD τ).loc main_arg2)) (m ((c.tc : Thread nD τ).loc main_arg5)) := layer1 m ρ c
  have h1 : V8 m ρ c main_arg3 = (m ((c.tc : Thread nD τ).loc main_arg3)) := ((W8_of_ne m ρ c main_arg3 (by decide)).trans ((keep_hostOps2_main_arg3 (W6 m ρ c)).trans ((W6_of_ne m ρ c main_arg3 (by decide)).trans ((keep_hostOps1_main_arg3 (W4 m ρ c)).trans ((W4_of_ne m ρ c main_arg3 (by decide)).trans (arg3_3 m ρ c))))))
  rw [h0, h1]
  exact Bridge.linear2 _ _ _ _ _

/-- After the stretch that follows: the rows gathered at the sources. -/
theorem gathered2 : W10 m ρ c (Proc.devRef .tc main_v52) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  gathered2_of (W9 m ρ c) _ _ _ _ _ (prod2 m ρ c) ((W9_of_ne m ρ c main_v5 (by decide)).trans ((W8_of_ne m ρ c main_v5 (by decide)).trans ((keep_hostOps2_main_v5 (W6 m ρ c)).trans ((W6_of_ne m ρ c main_v5 (by decide)).trans ((keep_hostOps1_main_v5 (W4 m ρ c)).trans ((W4_of_ne m ρ c main_v5 (by decide)).trans (src3 m ρ c)))))))

/-- After region 4: the scaled messages. -/
theorem scaled2 : W11 m ρ c (Proc.devRef .tc main_v53) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (W11_arr m ρ c 2).trans ((Scale2.final (V10 m ρ) c).trans ?_)
  have h0 : V10 m ρ c main_v52 = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := gathered2 m ρ c
  have h1 : V10 m ρ c main_v30 = (shapeCast S3300000x1 (val_main_v29 (F := Ideal) (m ((c.tc : Thread nD τ).loc main_arg5))) shapeCasts_S3300000_S3300000x1) := ((keep_hostOps4_main_v30 (W9 m ρ c)).trans ((W9_of_ne m ρ c main_v30 (by decide)).trans ((W8_of_ne m ρ c main_v30 (by decide)).trans ((keep_hostOps2_main_v30 (W6 m ρ c)).trans (((W6_arr m ρ c 1).trans (((dat1 (V5 m ρ) c).arrAt_in 1 rfl _).trans (A_eq1 (V5 m ρ) c 1))).trans ((keep_hostOps1_main_v30 (W4 m ρ c)).trans ((W4_of_ne m ρ c main_v30 (by decide)).trans (weight3 m ρ c))))))))
  rw [h0, h1]
  exact Bridge.scale2 _ _ _ _ _

/-- After the last stretch: the messages added up at the targets, and the bias as a row. -/
theorem summed2 : W12 m ρ c (Proc.devRef .tc main_v56) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  summed2_of (W11 m ρ c) _ _ _ _ _ (scaled2 m ρ c) ((W11_of_ne m ρ c main_v6 (by decide)).trans ((keep_hostOps4_main_v6 (W9 m ρ c)).trans ((W9_of_ne m ρ c main_v6 (by decide)).trans ((W8_of_ne m ρ c main_v6 (by decide)).trans ((keep_hostOps2_main_v6 (W6 m ρ c)).trans ((W6_of_ne m ρ c main_v6 (by decide)).trans ((keep_hostOps1_main_v6 (W4 m ρ c)).trans ((W4_of_ne m ρ c main_v6 (by decide)).trans (dst3 m ρ c)))))))))
theorem biasrow2 : W12 m ρ c (Proc.devRef .tc main_v57) = shapeCast S1x16 (m ((c.tc : Thread nD τ).loc main_arg4)) shapeCasts_S16_S1x16 :=
  (biasrow2_of (W11 m ρ c)).trans (congrArg (fun x => shapeCast S1x16 x shapeCasts_S16_S1x16) ((W11_of_ne m ρ c main_arg4 (by decide)).trans ((keep_hostOps4_main_arg4 (W9 m ρ c)).trans ((W9_of_ne m ρ c main_arg4 (by decide)).trans ((W8_of_ne m ρ c main_arg4 (by decide)).trans ((keep_hostOps2_main_arg4 (W6 m ρ c)).trans ((W6_of_ne m ρ c main_arg4 (by decide)).trans ((keep_hostOps1_main_arg4 (W4 m ρ c)).trans ((W4_of_ne m ρ c main_arg4 (by decide)).trans (arg4_3 m ρ c))))))))))

/-- After region 5: the result. -/
theorem result : W13 m ρ c (Proc.devRef .tc main_v58)
    = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W13_arr m ρ c 2).trans ((Bias2.final (V12 m ρ) c).trans ?_)
  have h0 : V12 m ρ c main_v56 = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := summed2 m ρ c
  have h1 : V12 m ρ c main_v57 = shapeCast S1x16 (m ((c.tc : Thread nD τ).loc main_arg4)) shapeCasts_S16_S1x16 := biasrow2 m ρ c
  rw [h0, h1]
  exact Bridge.bias2 _ _ _ _ _ _

end Cert.KernelIdeal.Chain

end
-- ==== Proof.lean ====
/-
  A two-layer graph convolution: the kernel against its reference, at the ideal values.

  Both programs take node features x (100000 × 16), two weight matrices and biases, and an edge list (2 × 3200000).
  They append a self loop to every node, count each node's in-degree d, give it the factor d^(-1/2) (0 where d is
  not positive), and weigh every edge by the product of its two ends' factors. A layer multiplies the features by its
  weight matrix, gathers the product's rows at the edge sources, scales each gathered row by its edge's weight, adds
  the rows up at the edge targets and adds the bias; the first layer's output passes through max(·, 0).
  The reference does all of it with host operations. The kernel does the two matrix products, the two scalings and the
  two bias steps in six pipelined regions over row blocks of 5000 and everything else with the same host operations.
  At the ideal values a region's output array is the reference's operation of the same inputs (a product's entry is
  the sum over the shared axis whatever the blocking; rounding the operands to a shorter format is the identity), so
  buffer by buffer the kernel holds the reference's stages and the two results are the same function of the arguments.
  No algebraic law is used and the inputs' finiteness plays no part.
  The three frames: the kernel's two are the generated frame proofs; the reference's is its run with the result dropped.
  The ideal pass rewrote nothing, so the idealization statement is `True`.
-/
import proofs.«165151_j37022618091719_2_alg».proof.Defs
import proofs.«165151_j37022618091719_2_alg».proof.Proof.Gen.Kernel
import proofs.«165151_j37022618091719_2_alg».proof.Proof.Gen.Kernel.Skeleton
import proofs.«165151_j37022618091719_2_alg».proof.Proof.Gen.Kernel.Launch
import proofs.«165151_j37022618091719_2_alg».proof.Proof.Gen.Kernel.Points
import proofs.«165151_j37022618091719_2_alg».proof.Proof.Gen.Kernel.Frame
import proofs.«165151_j37022618091719_2_alg».proof.Proof.Gen.KernelIdeal
import proofs.«165151_j37022618091719_2_alg».proof.Proof.Gen.KernelIdeal.Skeleton
import proofs.«165151_j37022618091719_2_alg».proof.Proof.Gen.KernelIdeal.Launch
import proofs.«165151_j37022618091719_2_alg».proof.Proof.Gen.KernelIdeal.Points
import proofs.«165151_j37022618091719_2_alg».proof.Proof.Gen.KernelIdeal.Frame
import proofs.«165151_j37022618091719_2_alg».proof.Proof.Gen.ReferenceIdeal
import proofs.«165151_j37022618091719_2_alg».proof.Proof.Gen.Pre_finite_inputs
import proofs.«165151_j37022618091719_2_alg».proof.Proof.RunP
import proofs.«165151_j37022618091719_2_alg».proof.Proof.ReadP
import proofs.«165151_j37022618091719_2_alg».proof.Proof.KernelRun
import proofs.«165151_j37022618091719_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the reference's last stage of the (agreeing) arguments. -/
theorem algebraic : Cert.algebraic_KernelIdeal_ReferenceIdeal := by
  intro m ρ m' ρ' _ hagree
  refine ⟨fun c => Cert.ReferenceIdeal.ReadP.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result m ρ c), (h c).2⟩)
      (Cert.KernelIdeal.Chain.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v90_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
